-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S32768 : Shape := ⟨1, ![32768]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32768x1024 .f32) (main_arg1 : FVec F S1024x1024 .f32) (main_arg2 : FVec F S1024 .f32) (main_arg3 : FVec F S1024x1024 .f32) (main_arg4 : FVec F S1024 .f32) (main_arg5 : IVec S32768 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩
abbrev S1x1024 : Shape := ⟨2, ![1, 1024]⟩
abbrev S1024x1 : Shape := ⟨2, ![1024, 1]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S32768, .i32⟩
  | .hbm, ⟨6, _⟩ => ⟨S32768x1, .i32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S1024x1024, .bf16⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32768_S32768x1 : S32768.ShapeCasts S32768x1
  shapeCasts_S1024_S1x1024 : S1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .i32 = 32 ∨ (Rect.block (s := S32768x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S32768 : Shape := ⟨1, ![32768]⟩
abbrev S_ : Shape := ⟨0, ![]⟩
abbrev S32768x1 : Shape := ⟨2, ![32768, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S32768, .i32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.RoutedSpec.lean ====
/-
  Two experts, one hard gate per token: the result as ONE function of the argument arrays, and the law that lets the
  gate be applied either to a token's row before the products or to the products' results after them.

  A token p carries a route word r(p). Its gate is g(p) = 1 when r(p) = 0 and g(p) = 0 otherwise; the other expert's gate
  is 1 − g(p). The result at (p, j) is

      (∑ₖ x(p,k) · W₁(k,j) + b₁(j)) · g(p)  +  (∑ₖ x(p,k) · W₂(k,j) + b₂(j)) · (1 − g(p)).

  Because g(p) is exactly 0 or 1, one of the two summands is the untouched expert output and the other is 0, and the
  same holds when every x(p,k) and the bias are multiplied by the gate BEFORE the product: on the extended reals
  a · 1 = a and a · 0 = 0 for every a (infinite or not), so no finiteness is needed for the two spellings to agree.
-/
import Idealize.ShloMosaic.Lib.ValueIdx
import Idealize.ShloMosaic.Lib.IdealHost
import Idealize.ShloMosaic.PureOps.Ideal

noncomputable section

open scoped BigOperators

namespace Cert.Routed

open Idealize.ShloMosaic Idealize.ShloMosaic.ValueIdx

/-! ## The gate -/

/-- The gate of a route word: one for expert 0, zero for any other word. -/
def gate (r : BitVec 32) : EReal := if r = 0#32 then 1 else 0

theorem gate_zero_or_one (r : BitVec 32) : gate r = 1 ∨ gate r = 0 := by
  unfold gate; split
  · exact Or.inl rfl
  · exact Or.inr rfl

/-- The comparison word "r = 0" is the one-bit 1 exactly when r is the zero word. -/
theorem cmpi_eq_zero_word (r : BitVec 32) : IntOp.cmpi .eq r 0#32 = if r = 0#32 then 1#1 else 0#1 := by
  show BitVec.ofBool (r == 0#32) = _
  by_cases h : r = 0#32
  · rw [if_pos h, h]; rfl
  · rw [if_neg h, beq_false_of_ne h]; rfl

/-- The comparison word "r = 0", read unsigned as a number, is the gate. -/
theorem uitofp_cmpi_eq (r : BitVec 32) :
    FloatOps.uitofp (F := Ideal) .f32 (IntOp.cmpi .eq r 0#32) = gate r := by
  show (((IntOp.cmpi .eq r 0#32).toNat : ℝ) : EReal) = gate r
  rw [cmpi_eq_zero_word]
  unfold gate
  by_cases h : r = 0#32
  · rw [if_pos h, if_pos h]; norm_num
  · rw [if_neg h, if_neg h]; norm_num

/-- The same word widened with zeros to 32 bits and read signed is the gate as well: a one-bit word widened is 0 or 1. -/
theorem sitofp_extui_cmpi_eq (r : BitVec 32) :
    FloatOps.sitofp (F := Ideal) .f32 ((IntOp.cmpi .eq r 0#32).setWidth 32) = gate r := by
  show (((((IntOp.cmpi .eq r 0#32).setWidth 32).toInt : ℤ) : ℝ) : EReal) = gate r
  rw [cmpi_eq_zero_word]
  unfold gate
  by_cases h : r = 0#32
  · rw [if_pos h, if_pos h, show ((1#1 : BitVec 1).setWidth 32).toInt = 1 by decide]; norm_num
  · rw [if_neg h, if_neg h, show ((0#1 : BitVec 1).setWidth 32).toInt = 0 by decide]; norm_num

/-- One minus one is zero on the extended reals. -/
theorem one_sub_one : (1 : EReal) - 1 = 0 := by
  rw [show (1 : EReal) = ((1 : ℝ) : EReal) by norm_cast, ← EReal.coe_sub]; norm_num

/-! ## The law: a 0/1 gate may be applied before or after the products -/

/-- For a gate g that is 0 or 1, gating the two experts' outputs equals running the experts on gated inputs with gated
    biases. Over the extended reals, with no finiteness assumed: both sides keep one expert untouched and zero the other. -/
theorem gate_before_eq_gate_after {ι : Type*} [Fintype ι] (x w₁ w₂ : ι → EReal) (b₁ b₂ g : EReal) (hg : g = 1 ∨ g = 0) :
    ((∑ k, (x k * g) * w₁ k) + b₁ * g) + ((∑ k, (x k * (1 - g)) * w₂ k) + b₂ * (1 - g))
      = ((∑ k, x k * w₁ k) + b₁) * g + ((∑ k, x k * w₂ k) + b₂) * (1 - g) := by
  rcases hg with rfl | rfl
  · simp only [one_sub_one, mul_one, mul_zero, zero_mul, Finset.sum_const_zero, add_zero]
  · simp only [sub_zero, mul_one, mul_zero, zero_mul, Finset.sum_const_zero, add_zero, zero_add]

/-! ## The result as one function of the arguments -/

/-- The routed result at token p, output column j. -/
def routedAt (x : (⟨2, ![32768, 1024]⟩ : Shape).Idx → EReal) (w₁ : (⟨2, ![1024, 1024]⟩ : Shape).Idx → EReal)
    (b₁ : (⟨1, ![1024]⟩ : Shape).Idx → EReal) (w₂ : (⟨2, ![1024, 1024]⟩ : Shape).Idx → EReal)
    (b₂ : (⟨1, ![1024]⟩ : Shape).Idx → EReal) (route : (⟨1, ![32768]⟩ : Shape).Idx → BitVec 32)
    (p : Fin 32768) (j : Fin 1024) : EReal :=
  ((∑ k : Fin 1024, x (ix2 p k) * w₁ (ix2 k j)) + b₁ (ix1 j)) * gate (route (ix1 p))
    + ((∑ k : Fin 1024, x (ix2 p k) * w₂ (ix2 k j)) + b₂ (ix1 j)) * (1 - gate (route (ix1 p)))

/-- The whole routed array. -/
def routed (x : (⟨2, ![32768, 1024]⟩ : Shape).Idx → EReal) (w₁ : (⟨2, ![1024, 1024]⟩ : Shape).Idx → EReal)
    (b₁ : (⟨1, ![1024]⟩ : Shape).Idx → EReal) (w₂ : (⟨2, ![1024, 1024]⟩ : Shape).Idx → EReal)
    (b₂ : (⟨1, ![1024]⟩ : Shape).Idx → EReal) (route : (⟨1, ![32768]⟩ : Shape).Idx → BitVec 32) :
    (⟨2, ![32768, 1024]⟩ : Shape).Idx → EReal :=
  fun i => routedAt x w₁ b₁ w₂ b₂ route (i 0) (i 1)

theorem routed_ix2 (x : (⟨2, ![32768, 1024]⟩ : Shape).Idx → EReal) (w₁ : (⟨2, ![1024, 1024]⟩ : Shape).Idx → EReal)
    (b₁ : (⟨1, ![1024]⟩ : Shape).Idx → EReal) (w₂ : (⟨2, ![1024, 1024]⟩ : Shape).Idx → EReal)
    (b₂ : (⟨1, ![1024]⟩ : Shape).Idx → EReal) (route : (⟨1, ![32768]⟩ : Shape).Idx → BitVec 32) (p : Fin 32768) (j : Fin 1024) :
    routed x w₁ b₁ w₂ b₂ route (ix2 p j) = routedAt x w₁ b₁ w₂ b₂ route p j := rfl

end Cert.Routed

end
-- ==== Proof.RefRouted.lean ====
/-
  The reference computes the routed result.

  Read one stage at a time at the entry (p, j), the reference gates each token's row and each bias BEFORE its product:
  (∑ₖ (x(p,k)·g(p))·W₁(k,j) + b₁(j)·g(p)) + (∑ₖ (x(p,k)·(1−g(p)))·W₂(k,j) + b₂(j)·(1−g(p))), with g(p) the comparison word
  "route(p) = 0" read as a number. Since g(p) is 0 or 1 this is the routed result, where the gate multiplies the experts'
  outputs instead.
-/
import proofs.«173941_j47055661695574_2_alg».proof.Proof.Gen.ReferenceIdeal.Read
import proofs.«173941_j47055661695574_2_alg».proof.Proof.RoutedSpec

noncomputable section

open scoped BigOperators

namespace Cert.ReferenceIdeal.RefValue

open Cert.ReferenceIdeal Cert.ReferenceIdeal.Read Idealize.ShloMosaic Idealize.ShloMosaic.ValueIdx Cert.Routed

variable (x0 : (⟨S32768x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S32768, .i32⟩ : BufTy).Contents (Elt Ideal))

/-- The reference's last stage is the routed array of its arguments. -/
theorem result_eq : val_main_v22 (F := Ideal) x0 x1 x2 x3 x4 x5 = routed x0 x1 x2 x3 x4 x5 := by
  funext i
  obtain ⟨p, j, rfl⟩ : ∃ (p : Fin 32768) (j : Fin 1024), i = ix2 p j := ⟨i 0, i 1, eq_ix2 i⟩
  rw [routed_ix2]
  unfold routedAt
  rw [← gate_before_eq_gate_after _ _ _ _ _ _ (gate_zero_or_one _)]
  -- the positions each stage reads, in coordinates
  have hl : ∀ k : Fin 1024, lidx_main_v8 (ix2 p j) k = ix2 p k := fun k => funext fun a => Fin.ext (by
    match a with
    | ⟨0, _⟩ => rfl
    | ⟨1, _⟩ => rfl)
  have hr : ∀ k : Fin 1024, ridx_main_v8 (ix2 p j) k = ix2 k j := fun k => funext fun a => Fin.ext (by
    match a with
    | ⟨0, _⟩ => rfl
    | ⟨1, _⟩ => rfl)
  have hg : ∀ k : Fin 1024, idx_main_v3 (idx_main_v6 (ix2 p k)) = ix1 p := fun k => funext fun a => Fin.ext (by
    match a with
    | ⟨0, _⟩ => rfl)
  have hb : idx_main_v9 (idx_main_v10 (ix2 p j)) = ix1 j := funext fun a => Fin.ext (by
    match a with
    | ⟨0, _⟩ => rfl)
  have hc : ∀ i : S32768.Idx, val_main_v0 (F := Ideal) i = 0#32 := fun i => by
    rw [val_main_v0_apply, val_main_c_apply]
  have h1 : ∀ i : S32768x1.Idx, val_main_v4 (F := Ideal) i = 1 := fun i => by
    rw [val_main_v4_apply, val_main_cst_apply]; exact Ideal.ofBits_one_f32
  rw [val_main_v22_apply, val_main_v13_apply, val_main_v21_apply, val_main_v8_apply, val_main_v16_apply,
    val_main_v12_apply, val_main_v20_apply]
  simp only [val_main_v7_apply, val_main_v15_apply, val_main_v6_apply, val_main_v14_apply, val_main_v10_apply,
    val_main_v18_apply, val_main_v11_apply, val_main_v19_apply, val_main_v9_apply, val_main_v17_apply, val_main_v3_apply,
    val_main_v5_apply, val_main_v2_apply, val_main_v1_apply, hc, h1, uitofp_cmpi_eq, Ideal.addf_def, Ideal.mulf_def, Ideal.subf_def]
  have hl' : ∀ k : Fin 1024, lidx_main_v16 (ix2 p j) k = ix2 p k := hl
  have hr' : ∀ k : Fin 1024, ridx_main_v16 (ix2 p j) k = ix2 k j := hr
  have hg' : ∀ k : Fin 1024, idx_main_v3 (idx_main_v14 (ix2 p k)) = ix1 p := hg
  have hgb : idx_main_v3 (idx_main_v11 (ix2 p j)) = ix1 p := hg j
  have hgb' : idx_main_v3 (idx_main_v19 (ix2 p j)) = ix1 p := hg j
  have hb' : idx_main_v17 (idx_main_v18 (ix2 p j)) = ix1 j := hb
  refine congrArg₂ (· + ·) (congrArg₂ (· + ·) (Finset.sum_congr rfl fun k _ => ?_) ?_)
    (congrArg₂ (· + ·) (Finset.sum_congr rfl fun k _ => ?_) ?_)
  · rw [hl k, hr k, hg k]
  · rw [hb, hgb]
  · rw [hl' k, hr' k, hg' k]
  · rw [hb', hgb']

end Cert.ReferenceIdeal.RefValue

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«173941_j47055661695574_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«173941_j47055661695574_2_alg».proof.Proof.LibDenseRows
import proofs.«173941_j47055661695574_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.BodyAt.lean ====
/-
  The kernel body's stored value, one entry at a time.

  With the body's six loaded blocks named — a tile X of 1024 token rows, the two weight matrices W₁ and W₂, the tile's
  route column R, the two bias rows B₁ and B₂ — the stored tile is, at (p, j),

      (∑ₖ X(p,k) · W₁(k,j) + B₁(0,j)) · g(R(p,0))  +  (∑ₖ X(p,k) · W₂(k,j) + B₂(0,j)) · (1 − g(R(p,0))),

  g the 0/1 gate of a route word. Changes of float format are the identity on extended reals, each matrix product into
  a zero accumulator is the plain sum, a bias row repeated down the rows reads its one row, a column repeated along the
  rows reads its own row, and the comparison word widened and read signed is the gate.
-/
import proofs.«173941_j47055661695574_2_alg».proof.Proof.Gen.KernelIdeal.Skeleton
import proofs.«173941_j47055661695574_2_alg».proof.Proof.LibPlainLayers
import proofs.«173941_j47055661695574_2_alg».proof.Proof.RoutedSpec
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.Routed

/-- The body's products are plain ones: rows of the left operand against columns of the right. -/
theorem dims_plain : dot_S1024x1024_S1024x1024_S1024x1024_1_0_0_1_n_n = DotDims.plain 1024 1024 1024 := rfl

/-- A product of the token tile (its format narrowed, which changes nothing here) with a weight matrix, at (p, j). -/
theorem product_at (v0 : FVec Ideal S1024x1024 .f32) (w : FVec Ideal S1024x1024 .bf16) (p j : Fin 1024) :
    matmul (F := Ideal) dot_S1024x1024_S1024x1024_S1024x1024_1_0_0_1_n_n none (truncf .bf16 v0 bitsLt_bf16_f32)
        (shapeCast S1024x1024 w shapeCasts_S1024x1024_S1024x1024) (constant S1024x1024 .f32 0x00000000#32) (ix2 p j)
      = ∑ k : Fin 1024, v0 (ix2 p k) * w (ix2 k j) := by
  rw [shapeCast_self]
  exact Cert.PlainLayers.plainMM_of_eq _ dims_plain none (truncf .bf16 v0 bitsLt_bf16_f32) w p j

/-- The gate column of the tile, at row p: the comparison of the route word with zero, widened and read signed. -/
theorem gate_at (v8 : IVec S1024x1 32) (p : Fin 1024) (u : Fin 1) :
    (sitofp .f32 (extui 32 (cmpi .eq (shapeCast S1024x1 v8 shapeCasts_S1024x1_S1024x1) (broadcast S1024x1 (0#32 : BitVec 32))) natLt_1_32)
        : FVec Ideal S1024x1 .f32) (ix2 p u) = gate (v8 (ix2 p u)) := by
  rw [shapeCast_self]
  exact sitofp_extui_cmpi_eq (v8 (ix2 p u))

/-- THE STORED TILE AT (p, j). -/
theorem stored_at (v0 : Vec Ideal S1024x1024 .f32) (v2 v5 : Vec Ideal S1024x1024 .bf16) (v8 : Vec Ideal S1024x1 .i32)
    (v16 v22 : Vec Ideal S1x1024 .f32) (p j : Fin 1024) :
    k0_pay1 (F := Ideal) v0 v2 v5 v8 v16 v22 (ix2 p j)
      = ((∑ k : Fin 1024, v0 (ix2 p k) * v2 (ix2 k j)) + v16 (ix2 (0 : Fin 1) j)) * gate (v8 (ix2 p (0 : Fin 1)))
        + ((∑ k : Fin 1024, v0 (ix2 p k) * v5 (ix2 k j)) + v22 (ix2 (0 : Fin 1) j)) * (1 - gate (v8 (ix2 p (0 : Fin 1)))) := by
  unfold k0_pay1
  refine congrArg₂ (· + ·)
    (congrArg₂ (· * ·) (congrArg₂ (· + ·) (product_at v0 v2 p j) ?_) ?_)
    (congrArg₂ (· * ·) (congrArg₂ (· + ·) (product_at v0 v5 p j) ?_) ?_)
  · exact (broadcastTo_1b_ab_apply _ broadcasts_S1x1024_S1024x1024 p j).trans (congrFun (shapeCast_self v16 _) _)
  · exact (Cert.Columns.broadcastTo_a1_ab_apply _ broadcasts_S1024x1_S1024x1024 p j).trans (gate_at v8 p 0)
  · exact (broadcastTo_1b_ab_apply _ broadcasts_S1x1024_S1024x1024 p j).trans (congrFun (shapeCast_self v22 _) _)
  · refine (Cert.Columns.broadcastTo_a1_ab_apply _ broadcasts_S1024x1_S1024x1024 p j).trans ?_
    exact congrArg₂ (· - ·) Ideal.ofBits_one_f32 (gate_at v8 p 0)

end Cert.KernelIdeal.Body

end
-- ==== Proof.Blocks.lean ====
/-
  From the tiles the grid points write to the whole result array.

  The grid has 32 points. Point t works on token rows 1024·t … 1024·t + 1023: it is handed that tile of x, the matching
  piece of the route column, and — the same at every point — both weight matrices and both bias rows, and it writes
  back the matching tile of the result. The arrays the region finds besides the arguments are re-laid arguments: the
  route vector as a column, each bias vector as a row, each weight matrix with its float format narrowed (which changes
  no value here). So what point t writes back is tile t of ONE array, the routed result of the six arguments; the 32
  tiles cover every row, hence the result array ends as that array.
-/
import proofs.«173941_j47055661695574_2_alg».proof.Proof.Gen.KernelIdeal.Value
import proofs.«173941_j47055661695574_2_alg».proof.Proof.BodyAt
import proofs.«173941_j47055661695574_2_alg».proof.Proof.RoutedSpec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Routed
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Which block each point is handed: the index maps over the 32 points -/

theorem idx_x : ∀ t : Fin cfg0.N, win0_0.index t (0 : Fin 2) = t.val ∧ win0_0.index t (1 : Fin 2) = 0 :=
  (by decide +kernel : ∀ t : Fin grid0.N, _)
theorem idx_route : ∀ t : Fin cfg0.N, win0_1.index t (0 : Fin 2) = t.val ∧ win0_1.index t (1 : Fin 2) = 0 :=
  (by decide +kernel : ∀ t : Fin grid0.N, _)
theorem idx_w1 : ∀ t : Fin cfg0.N, win0_2.index t (0 : Fin 2) = 0 ∧ win0_2.index t (1 : Fin 2) = 0 :=
  (by decide +kernel : ∀ t : Fin grid0.N, _)
theorem idx_b1 : ∀ t : Fin cfg0.N, win0_3.index t (0 : Fin 2) = 0 ∧ win0_3.index t (1 : Fin 2) = 0 :=
  (by decide +kernel : ∀ t : Fin grid0.N, _)
theorem idx_w2 : ∀ t : Fin cfg0.N, win0_4.index t (0 : Fin 2) = 0 ∧ win0_4.index t (1 : Fin 2) = 0 :=
  (by decide +kernel : ∀ t : Fin grid0.N, _)
theorem idx_b2 : ∀ t : Fin cfg0.N, win0_5.index t (0 : Fin 2) = 0 ∧ win0_5.index t (1 : Fin 2) = 0 :=
  (by decide +kernel : ∀ t : Fin grid0.N, _)
theorem idx_out : ∀ t : Fin cfg0.N, win0_6.index t (0 : Fin 2) = t.val ∧ win0_6.index t (1 : Fin 2) = 0 :=
  (by decide +kernel : ∀ t : Fin grid0.N, _)

/-! ## The re-laid arguments the region finds -/

/-- The route column is the route vector recast. -/
theorem found_route (c : Dev nD) :
    (V m c main_v0 : Vec Ideal S32768x1 .i32) = shapeCast S32768x1 (m ((c : Thread nD τ).loc main_arg5)) shapeCasts_S32768_S32768x1 := by
  dsimp only [Gen.V, Gen.hostOps0]; after_results; rfl

/-- The first bias row is the first bias vector recast. -/
theorem found_b1 (c : Dev nD) :
    (V m c main_v1 : Vec Ideal S1x1024 .f32) = shapeCast S1x1024 (m ((c : Thread nD τ).loc main_arg2)) shapeCasts_S1024_S1x1024 := by
  dsimp only [Gen.V, Gen.hostOps0]; after_results; rfl

/-- The second bias row is the second bias vector recast. -/
theorem found_b2 (c : Dev nD) :
    (V m c main_v2 : Vec Ideal S1x1024 .f32) = shapeCast S1x1024 (m ((c : Thread nD τ).loc main_arg4)) shapeCasts_S1024_S1x1024 := by
  dsimp only [Gen.V, Gen.hostOps0]; after_results; rfl

/-- The first weight matrix in the narrower format holds the same extended reals. -/
theorem found_w1 (c : Dev nD) : (V m c main_v3 : Vec Ideal S1024x1024 .bf16) = (m ((c : Thread nD τ).loc main_arg1)) := by
  dsimp only [Gen.V, Gen.hostOps0]; after_results; rfl

/-- So does the second. -/
theorem found_w2 (c : Dev nD) : (V m c main_v4 : Vec Ideal S1024x1024 .bf16) = (m ((c : Thread nD τ).loc main_arg3)) := by
  dsimp only [Gen.V, Gen.hostOps0]; after_results; rfl

/-! ## Each input block at a point, as entries of the arguments -/

/-- The token tile at point t: rows 1024·t + (the row inside the tile). -/
theorem tile_x (c : Dev nD) (t : Fin cfg0.N) (y : S1024x1024.Idx) (i : S32768x1024.Idx)
    (h0 : (i 0).val = t.val * 1024 + (y 0).val) (h1 : (i 1).val = (y 1).val) :
    (iblk m c 0 t : Vec Ideal S1024x1024 .f32) y = (m ((c : Thread nD τ).loc main_arg0)) i := by
  obtain ⟨e0, e1⟩ := idx_x t
  unfold iblk
  rw [View.read_apply]
  show V m c main_arg0 _ = _
  rw [V_main_arg0 m c]
  refine congrArg _ (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

/-- The route piece at point t: the route words of the tile's rows. -/
theorem tile_route (c : Dev nD) (t : Fin cfg0.N) (p : Fin 1024) (u : Fin 1) (r : Fin 32768) (h : r.val = t.val * 1024 + p.val) :
    (iblk m c 1 t : Vec Ideal S1024x1 .i32) (ix2 p u) = (m ((c : Thread nD τ).loc main_arg5)) (ix1 r) := by
  obtain ⟨e0, e1⟩ := idx_route t
  unfold iblk
  rw [View.read_apply]
  show V m c main_v0 _ = _
  rw [found_route m c]
  refine shapeCast_apply _ _ _ _ ?_
  refine (Shape.rowMajor_val_one (d := ![32768]) (ix1 r)).trans ?_
  refine Eq.trans ?_ (Shape.rowMajor_val_two (d := ![32768, 1]) _).symm
  have hu : u.val < 1 := u.isLt
  show r.val = (win0_1.index t (0 : Fin 2) * 1024 + 1 * p.val) * 1 + (win0_1.index t (1 : Fin 2) * 1 + 1 * u.val)
  rw [e0, e1, h]; omega

/-- The first weight block at any point is the whole first weight matrix. -/
theorem tile_w1 (c : Dev nD) (t : Fin cfg0.N) (y : S1024x1024.Idx) :
    (iblk m c 2 t : Vec Ideal S1024x1024 .bf16) y = (m ((c : Thread nD τ).loc main_arg1)) y := by
  obtain ⟨e0, e1⟩ := idx_w1 t
  unfold iblk
  rw [View.read_apply]
  show V m c main_v3 _ = _
  rw [found_w1 m c]
  refine congrArg _ (funext fun a => Fin.ext ?_)
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

/-- The second weight block at any point is the whole second weight matrix. -/
theorem tile_w2 (c : Dev nD) (t : Fin cfg0.N) (y : S1024x1024.Idx) :
    (iblk m c 4 t : Vec Ideal S1024x1024 .bf16) y = (m ((c : Thread nD τ).loc main_arg3)) y := by
  obtain ⟨e0, e1⟩ := idx_w2 t
  unfold iblk
  rw [View.read_apply]
  show V m c main_v4 _ = _
  rw [found_w2 m c]
  refine congrArg _ (funext fun a => Fin.ext ?_)
  match a with
  | ⟨0, _⟩ => show win0_4.index t (0 : Fin 2) * 1024 + 1 * (y 0).val = (y 0).val; rw [e0]; omega
  | ⟨1, _⟩ => show win0_4.index t (1 : Fin 2) * 1024 + 1 * (y 1).val = (y 1).val; rw [e1]; omega

/-- The first bias block at any point is the first bias vector as a row. -/
theorem tile_b1 (c : Dev nD) (t : Fin cfg0.N) (u : Fin 1) (j : Fin 1024) :
    (iblk m c 3 t : Vec Ideal S1x1024 .f32) (ix2 u j) = (m ((c : Thread nD τ).loc main_arg2)) (ix1 j) := by
  obtain ⟨e0, e1⟩ := idx_b1 t
  unfold iblk
  rw [View.read_apply]
  show V m c main_v1 _ = _
  rw [found_b1 m c]
  refine shapeCast_apply _ _ _ _ ?_
  refine (Shape.rowMajor_val_one (d := ![1024]) (ix1 j)).trans ?_
  refine Eq.trans ?_ (Shape.rowMajor_val_two (d := ![1, 1024]) _).symm
  have hu : u.val < 1 := u.isLt
  show j.val = (win0_3.index t (0 : Fin 2) * 1 + 1 * u.val) * 1024 + (win0_3.index t (1 : Fin 2) * 1024 + 1 * j.val)
  rw [e0, e1]; omega

/-- The second bias block at any point is the second bias vector as a row. -/
theorem tile_b2 (c : Dev nD) (t : Fin cfg0.N) (u : Fin 1) (j : Fin 1024) :
    (iblk m c 5 t : Vec Ideal S1x1024 .f32) (ix2 u j) = (m ((c : Thread nD τ).loc main_arg4)) (ix1 j) := by
  obtain ⟨e0, e1⟩ := idx_b2 t
  unfold iblk
  rw [View.read_apply]
  show V m c main_v2 _ = _
  rw [found_b2 m c]
  refine shapeCast_apply _ _ _ _ ?_
  refine (Shape.rowMajor_val_one (d := ![1024]) (ix1 j)).trans ?_
  refine Eq.trans ?_ (Shape.rowMajor_val_two (d := ![1, 1024]) _).symm
  have hu : u.val < 1 := u.isLt
  show j.val = (win0_5.index t (0 : Fin 2) * 1 + 1 * u.val) * 1024 + (win0_5.index t (1 : Fin 2) * 1024 + 1 * j.val)
  rw [e0, e1]; omega

/-! ## What a point writes back -/

/-- The stored tile over blocks that are pieces of the arguments X, W₁, B₁, W₂, B₂, R around token row P is the routed
    result at (P, j). -/
theorem stored_is_routed (v0 : Vec Ideal S1024x1024 .f32) (v2 v5 : Vec Ideal S1024x1024 .bf16) (v8 : Vec Ideal S1024x1 .i32)
    (v16 v22 : Vec Ideal S1x1024 .f32)
    (X : S32768x1024.Idx → EReal) (W₁ : S1024x1024.Idx → EReal) (B₁ : S1024.Idx → EReal) (W₂ : S1024x1024.Idx → EReal)
    (B₂ : S1024.Idx → EReal) (R : S32768.Idx → BitVec 32) (p j : Fin 1024) (P : Fin 32768)
    (hx : ∀ k : Fin 1024, v0 (ix2 p k) = X (ix2 P k)) (hw1 : ∀ k : Fin 1024, v2 (ix2 k j) = W₁ (ix2 k j))
    (hw2 : ∀ k : Fin 1024, v5 (ix2 k j) = W₂ (ix2 k j)) (hr : v8 (ix2 p (0 : Fin 1)) = R (ix1 P))
    (hb1 : v16 (ix2 (0 : Fin 1) j) = B₁ (ix1 j)) (hb2 : v22 (ix2 (0 : Fin 1) j) = B₂ (ix1 j)) :
    k0_pay1 (F := Ideal) v0 v2 v5 v8 v16 v22 (ix2 p j) = routedAt X W₁ B₁ W₂ B₂ R P j := by
  rw [Body.stored_at]
  unfold routedAt
  simp only [hx, hw1, hw2, hr, hb1, hb2]

/-- WHAT POINT t WRITES BACK is tile t of the routed result of the arguments. -/
theorem flushed_eq (c : Dev nD) (t : Fin cfg0.N) :
    (dats m 0 c).flushed 6 t = ((cfg0.win 6).blk t).view.read (Elt Ideal) (routed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6 m c t]
  unfold out0_6
  rw [View.canon_unit_zero hz]
  simp only [View.ld_unit_zero (S := S1024x1024) hz, View.ld_unit_zero (S := S1024x1) hz, View.ld_unit_zero (S := S1x1024) hz]
  obtain ⟨e0, e1⟩ := idx_out t
  have ht : t.val < 32 := lt_of_lt_of_eq t.isLt N_0
  funext (y : S1024x1024.Idx)
  obtain ⟨p, j, rfl⟩ : ∃ (p : Fin 1024) (j : Fin 1024), y = ix2 p j := ⟨y 0, y 1, eq_ix2 y⟩
  have hP : t.val * 1024 + p.val < 32768 := by have := p.isLt; omega
  show k0_pay1 (F := Ideal) (iblk m c 0 t) (iblk m c 2 t) (iblk m c 4 t) (iblk m c 1 t) (iblk m c 3 t) (iblk m c 5 t) (ix2 p j)
    = routedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        ((((cfg0.win 6).blk t).view.emb (ix2 p j)) 0) ((((cfg0.win 6).blk t).view.emb (ix2 p j)) 1)
  have hrow : (((cfg0.win 6).blk t).view.emb (ix2 p j)) 0 = (⟨t.val * 1024 + p.val, hP⟩ : Fin 32768) := Fin.ext (by
    show win0_6.index t (0 : Fin 2) * 1024 + 1 * p.val = t.val * 1024 + p.val; rw [e0]; omega)
  have hcol : (((cfg0.win 6).blk t).view.emb (ix2 p j)) 1 = j := Fin.ext (by
    show win0_6.index t (1 : Fin 2) * 1024 + 1 * j.val = j.val; rw [e1]; omega)
  rw [hrow, hcol]
  exact stored_is_routed (iblk m c 0 t) (iblk m c 2 t) (iblk m c 4 t) (iblk m c 1 t) (iblk m c 3 t) (iblk m c 5 t)
    _ _ _ _ _ _ p j ⟨t.val * 1024 + p.val, hP⟩
    (fun k => tile_x m c t (ix2 p k) (ix2 ⟨t.val * 1024 + p.val, hP⟩ k) rfl rfl)
    (fun k => tile_w1 m c t (ix2 k j)) (fun k => tile_w2 m c t (ix2 k j))
    (tile_route m c t p (0 : Fin 1) ⟨t.val * 1024 + p.val, hP⟩ rfl)
    (tile_b1 m c t (0 : Fin 1) j) (tile_b2 m c t (0 : Fin 1) j)

/-! ## The tiles cover the array -/

/-- An index is in point t's tile iff each coordinate is in the tile's range on its axis. -/
theorem mem_blk (t : Fin cfg0.N) (i : S32768x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v5).slice (win0_6.rect t)).set ↔ _
  rw [View.set_slice_whole, Rect.mem_set_unit]
  exact Iff.rfl

/-- Row r lies in the tile of point r / 1024. -/
theorem covered (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have hN : cfg0.N = 32 := N_0
  have hq : (i 0).val / 1024 < cfg0.N := by rw [hN]; omega
  obtain ⟨e0, e1⟩ := idx_out ⟨(i 0).val / 1024, hq⟩
  have e0' : win0_6.index ⟨(i 0).val / 1024, hq⟩ (0 : Fin 2) = (i 0).val / 1024 := e0
  refine ⟨⟨(i 0).val / 1024, hq⟩, flush0_6 _, ?_⟩
  rw [mem_blk]
  intro a
  match a with
  | ⟨0, _⟩ =>
    show win0_6.index ⟨(i 0).val / 1024, hq⟩ (0 : Fin 2) * 1024 ≤ (i 0).val
      ∧ (i 0).val < win0_6.index ⟨(i 0).val / 1024, hq⟩ (0 : Fin 2) * 1024 + 1024
    rw [e0']; omega
  | ⟨1, _⟩ =>
    show win0_6.index ⟨(i 0).val / 1024, hq⟩ (1 : Fin 2) * 1024 ≤ (i 1).val
      ∧ (i 1).val < win0_6.index ⟨(i 0).val / 1024, hq⟩ (1 : Fin 2) * 1024 + 1024
    rw [e1]; omega

/-! ## The array after the run, and the run -/

/-- The result array ends as the routed result of the arguments. -/
theorem final (c : Dev nD) : (dats m 0 c).arrAt 6 cfg0.N = (routed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (dats m 0 c).arrAt_eq_of_cover 6 _ (fun t _ => flushed_eq m c t) covered

/-- Every fair execution of the kernel program ends with the result array at the routed result of the arguments as
    launched, and the arguments unchanged. -/
theorem run : θ_run defs (onTc (τ := τ) (main (F := Ideal))) ⟨m, fun _ => 0, ρ⟩ fun r => ∀ c : Dev nD,
      r.2.mem ((c : Thread nD τ).loc main_v5) = (routed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.lean ====
/-
  Two experts behind a hard gate: the kernel against its reference.

  Both programs compute, for token p and output column j,

      out(p, j) = (∑ₖ x(p,k)·W₁(k,j) + b₁(j)) · g(p)  +  (∑ₖ x(p,k)·W₂(k,j) + b₂(j)) · (1 − g(p)),

  where g(p) is 1 when route(p) is the zero word and 0 otherwise. The kernel multiplies each expert's output by its gate;
  the reference multiplies each token's row and each bias by the gate before the products. A gate that is exactly 0 or 1
  makes these the same on the extended reals — a·1 = a and a·0 = 0 for every a — so the precondition is not used for the
  value. The kernel works tile by tile, 1024 token rows per grid point, and its 32 tiles cover the result; narrowing the
  weights' float format changes no value at the exact instance.

  The three frames: the two kernel programs' are the generated ones; the reference's is its generated run with the result
  forgotten. Nothing was rewritten in the idealized kernel, so the idealization claim is trivial.
-/
import proofs.«173941_j47055661695574_2_alg».proof.Defs
import proofs.«173941_j47055661695574_2_alg».proof.Proof.Gen.Kernel
import proofs.«173941_j47055661695574_2_alg».proof.Proof.Gen.Kernel.Skeleton
import proofs.«173941_j47055661695574_2_alg».proof.Proof.Gen.Kernel.Launch
import proofs.«173941_j47055661695574_2_alg».proof.Proof.Gen.Kernel.Points
import proofs.«173941_j47055661695574_2_alg».proof.Proof.Gen.Kernel.Frame
import proofs.«173941_j47055661695574_2_alg».proof.Proof.Gen.KernelIdeal
import proofs.«173941_j47055661695574_2_alg».proof.Proof.Gen.KernelIdeal.Skeleton
import proofs.«173941_j47055661695574_2_alg».proof.Proof.Gen.KernelIdeal.Launch
import proofs.«173941_j47055661695574_2_alg».proof.Proof.Gen.KernelIdeal.Points
import proofs.«173941_j47055661695574_2_alg».proof.Proof.Gen.KernelIdeal.Frame
import proofs.«173941_j47055661695574_2_alg».proof.Proof.Gen.ReferenceIdeal
import proofs.«173941_j47055661695574_2_alg».proof.Proof.Gen.Pre_finite_inputs
import proofs.«173941_j47055661695574_2_alg».proof.Proof.Gen.KernelIdeal.Value
import proofs.«173941_j47055661695574_2_alg».proof.Proof.Gen.ReferenceIdeal.Run
import proofs.«173941_j47055661695574_2_alg».proof.Proof.Gen.ReferenceIdeal.Read
import proofs.«173941_j47055661695574_2_alg».proof.Proof.RefRouted
import proofs.«173941_j47055661695574_2_alg».proof.Proof.Blocks
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the routed result of those arguments. -/
theorem algebraic : Cert.algebraic_KernelIdeal_ReferenceIdeal := by
  intro m ρ m' ρ' _ hagree
  refine ⟨fun c => Cert.Routed.routed (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq]
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
